-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256 : Shape := ⟨3, ![4, 512, 256]⟩
abbrev S4x128x256 : Shape := ⟨3, ![4, 128, 256]⟩
abbrev S512x512 : Shape := ⟨2, ![512, 512]⟩
abbrev S512 : Shape := ⟨1, ![512]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S4x512x256 .f32) (main_arg1 : FVec F S4x128x256 .f32) (main_arg2 : FVec F S512x512 .f32) (main_arg3 : FVec F S512 .f32) (main_arg4 : FVec F S512x512 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x128x256 .f32 := Host.absf main_arg1
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S4x512x256 : Shape := ⟨3, ![4, 512, 256]⟩
abbrev S4x128x256 : Shape := ⟨3, ![4, 128, 256]⟩
abbrev S512x512 : Shape := ⟨2, ![512, 512]⟩
abbrev S512 : Shape := ⟨1, ![512]⟩
abbrev S256x512 : Shape := ⟨2, ![256, 512]⟩
abbrev S1x512 : Shape := ⟨2, ![1, 512]⟩
abbrev S4x512x128x512 : Shape := ⟨4, ![4, 512, 128, 512]⟩
abbrev S1x16x256 : Shape := ⟨3, ![1, 16, 256]⟩
abbrev S1x128x256 : Shape := ⟨3, ![1, 128, 256]⟩
abbrev S1x16x128x512 : Shape := ⟨4, ![1, 16, 128, 512]⟩
abbrev S16x256 : Shape := ⟨2, ![16, 256]⟩
abbrev S128x256 : Shape := ⟨2, ![128, 256]⟩
abbrev S16x512 : Shape := ⟨2, ![16, 512]⟩
abbrev S128x512 : Shape := ⟨2, ![128, 512]⟩
abbrev S16x1x512 : Shape := ⟨3, ![16, 1, 512]⟩
abbrev S1x128x512 : Shape := ⟨3, ![1, 128, 512]⟩
abbrev S16x128x512 : Shape := ⟨3, ![16, 128, 512]⟩
abbrev S1x1x512 : Shape := ⟨3, ![1, 1, 512]⟩
abbrev S2048x512 : Shape := ⟨2, ![2048, 512]⟩

abbrev nBuf : Space → Nat
  | .hbm => 12
  | .vmem => 10
  | .smem => 0
  | _ => 0

abbrev bufTy : (tb : Table) → Fin (tcTables nBuf tb) → BufTy
  | .hbm, ⟨0, _⟩ => ⟨S4x512x256, .f32⟩
  | .hbm, ⟨1, _⟩ => ⟨S4x128x256, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S256x512, .f32⟩
  | .hbm, ⟨6, _⟩ => ⟨S256x512, .bf16⟩
  | .hbm, ⟨7, _⟩ => ⟨S256x512, .f32⟩
  | .hbm, ⟨8, _⟩ => ⟨S256x512, .bf16⟩
  | .hbm, ⟨9, _⟩ => ⟨S512x512, .bf16⟩
  | .hbm, ⟨10, _⟩ => ⟨S1x512, .f32⟩
  | .hbm, ⟨11, _⟩ => ⟨S4x512x128x512, .f32⟩
  | .local _ .vmem, ⟨0, _⟩ => ⟨S1x16x256, .f32⟩
  | .local _ .vmem, ⟨1, _⟩ => ⟨S1x16x256, .f32⟩
  | .local _ .vmem, ⟨2, _⟩ => ⟨S1x128x256, .f32⟩
  | .local _ .vmem, ⟨3, _⟩ => ⟨S1x128x256, .f32⟩
  | .local _ .vmem, ⟨4, _⟩ => ⟨S256x512, .bf16⟩
  | .local _ .vmem, ⟨5, _⟩ => ⟨S256x512, .bf16⟩
  | .local _ .vmem, ⟨6, _⟩ => ⟨S1x512, .f32⟩
  | .local _ .vmem, ⟨7, _⟩ => ⟨S512x512, .bf16⟩
  | .local _ .vmem, ⟨8, _⟩ => ⟨S1x16x128x512, .f32⟩
  | .local _ .vmem, ⟨9, _⟩ => ⟨S1x16x128x512, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S512x512_S256x512_0_0 : S512x512.Slices ![0, 0] S256x512
  bitsLt_bf16_f32 : FTy.bits .bf16 < FTy.bits .f32
  slices_S512x512_S256x512_256_0 : S512x512.Slices ![256, 0] S256x512
  shapeCasts_S512_S1x512 : S512.ShapeCasts S1x512
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  shapeCasts_S1x512_S1x1x512 : S1x512.ShapeCasts S1x1x512
  broadcasts_S1x1x512_S16x128x512 : S1x1x512.Broadcasts S16x128x512
  shapeCasts_S16x128x512_S2048x512 : S16x128x512.ShapeCasts S2048x512
  shapeCasts_S2048x512_S16x128x512 : S2048x512.ShapeCasts S16x128x512
  inb_S1x16x128x512_S1x16x128x512_0_0_0_0 : ∀ a, (![0, 0, 0, 0] : Fin 4 → Nat) a + S1x16x128x512.size a ≤ S1x16x128x512.size a
  h_S1x16x128x512 : 0 < S1x16x128x512.numel
  shapeCasts_S1x16x128x512_S16x128x512 : S1x16x128x512.ShapeCasts S16x128x512
  shapeCasts_S16x128x512_S1x16x128x512 : S16x128x512.ShapeCasts S1x16x128x512
  dot_S16x256_S256x512_S16x512_1_0_0_1_n_n_wf : DotDims.WF S16x256 S256x512 S16x512 [1] [0] [0] [1] [] []
  dot_S128x256_S256x512_S128x512_1_0_0_1_n_n_wf : DotDims.WF S128x256 S256x512 S128x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256.size a ≤ S4x512x256.size a
  hwx0_0 : ∀ i : grid0.Coords, EltTy.bits .f32 = 32 ∨ (Rect.block (s := S4x512x256) S1x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x256.size a
  hwx0_1 : ∀ i : grid0.Coords, EltTy.bits .f32 = 32 ∨ (Rect.block (s := S4x128x256) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x128x512.size a ≤ S4x512x128x512.size a
  hwx0_6 : ∀ i : grid0.Coords, EltTy.bits .f32 = 32 ∨ (Rect.block (s := S4x512x128x512) S1x16x128x512.size (cc0_transform_6 i) (hinb0_6 i)).WholeWords (EltTy.packing .f32)

variable [Facts₀]

def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x16x128x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x512x256 : Shape := ⟨3, ![4, 512, 256]⟩
abbrev S4x128x256 : Shape := ⟨3, ![4, 128, 256]⟩
abbrev S512x512 : Shape := ⟨2, ![512, 512]⟩
abbrev S512 : Shape := ⟨1, ![512]⟩
abbrev S256x512 : Shape := ⟨2, ![256, 512]⟩
abbrev S4x512x512 : Shape := ⟨3, ![4, 512, 512]⟩
abbrev S4x128x512 : Shape := ⟨3, ![4, 128, 512]⟩
abbrev S4x512x1x512 : Shape := ⟨4, ![4, 512, 1, 512]⟩
abbrev S4x1x128x512 : Shape := ⟨4, ![4, 1, 128, 512]⟩
abbrev S4x512x128x512 : Shape := ⟨4, ![4, 512, 128, 512]⟩
abbrev S1x1x1x512 : Shape := ⟨4, ![1, 1, 1, 512]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x128x256, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S256x512, .f32⟩
  | .hbm, ⟨6, _⟩ => ⟨S256x512, .f32⟩
  | .hbm, ⟨7, _⟩ => ⟨S4x512x512, .f32⟩
  | .hbm, ⟨8, _⟩ => ⟨S4x128x512, .f32⟩
  | .hbm, ⟨9, _⟩ => ⟨S4x512x1x512, .f32⟩
  | .hbm, ⟨10, _⟩ => ⟨S4x1x128x512, .f32⟩
  | .hbm, ⟨11, _⟩ => ⟨S4x512x128x512, .f32⟩
  | .hbm, ⟨12, _⟩ => ⟨S4x512x128x512, .f32⟩
  | .hbm, ⟨13, _⟩ => ⟨S4x512x128x512, .f32⟩
  | .hbm, ⟨14, _⟩ => ⟨S1x1x1x512, .f32⟩
  | .hbm, ⟨15, _⟩ => ⟨S4x512x128x512, .f32⟩
  | .hbm, ⟨16, _⟩ => ⟨S4x512x128x512, .f32⟩
  | .hbm, ⟨17, _⟩ => ⟨S4x512x128x512, .f32⟩
  | .hbm, ⟨18, _⟩ => ⟨S4x512x128x512, .f32⟩
  | .hbm, ⟨19, _⟩ => ⟨S_, .f32⟩
  | .hbm, ⟨20, _⟩ => ⟨S4x512x128x512, .f32⟩
  | .hbm, ⟨21, _⟩ => ⟨S4x512x128x512, .f32⟩
  | .hbm, ⟨22, _⟩ => ⟨S4x512x128x512, .f32⟩
  | .hbm, ⟨23, _⟩ => ⟨S_, .f32⟩
  | .hbm, ⟨24, _⟩ => ⟨S4x512x128x512, .f32⟩
  | .hbm, ⟨25, _⟩ => ⟨S4x512x128x512, .f32⟩
  | .hbm, ⟨26, _⟩ => ⟨S4x512x128x512, .f32⟩
  | .hbm, ⟨27, _⟩ => ⟨S_, .f32⟩
  | .hbm, ⟨28, _⟩ => ⟨S4x512x128x512, .f32⟩
  | .hbm, ⟨29, _⟩ => ⟨S4x512x128x512, .f32⟩
  | .hbm, ⟨30, _⟩ => ⟨S_, .f32⟩
  | .hbm, ⟨31, _⟩ => ⟨S4x512x128x512, .f32⟩
  | .hbm, ⟨32, _⟩ => ⟨S4x512x128x512, .f32⟩
  | .hbm, ⟨33, _⟩ => ⟨S4x512x128x512, .f32⟩
  | .hbm, ⟨34, _⟩ => ⟨S4x512x128x512, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  slices_S512x512_S256x512_0_0 : S512x512.Slices ![0, 0] S256x512
  slices_S512x512_S256x512_256_0 : S512x512.Slices ![256, 0] S256x512
  bcast_S4x512x512_S4x512x1x512_0_1_3 : S4x512x512.BroadcastsInDim S4x512x1x512 (![0, 1, 3] : Fin 3 → Fin S4x512x1x512.rank)
  bcast_S4x128x512_S4x1x128x512_0_2_3 : S4x128x512.BroadcastsInDim S4x1x128x512 (![0, 2, 3] : Fin 3 → Fin S4x1x128x512.rank)
  bcast_S4x512x1x512_S4x512x128x512_0_1_2_3 : S4x512x1x512.BroadcastsInDim S4x512x128x512 (![0, 1, 2, 3] : Fin 4 → Fin S4x512x128x512.rank)
  bcast_S4x1x128x512_S4x512x128x512_0_1_2_3 : S4x1x128x512.BroadcastsInDim S4x512x128x512 (![0, 1, 2, 3] : Fin 4 → Fin S4x512x128x512.rank)
  bcast_S512_S1x1x1x512_3 : S512.BroadcastsInDim S1x1x1x512 (![3] : Fin 1 → Fin S1x1x1x512.rank)
  bcast_S1x1x1x512_S4x512x128x512_0_1_2_3 : S1x1x1x512.BroadcastsInDim S4x512x128x512 (![0, 1, 2, 3] : Fin 4 → Fin S4x512x128x512.rank)
  bcast_S_S4x512x128x512 : S_.BroadcastsInDim S4x512x128x512 (![] : Fin 0 → Fin S4x512x128x512.rank)
  dot_S4x512x256_S256x512_S4x512x512_2_0_01_1_n_n_wf : DotDims.WF S4x512x256 S256x512 S4x512x512 [2] [0] [0, 1] [1] [] []
  dot_S4x128x256_S256x512_S4x128x512_2_0_01_1_n_n_wf : DotDims.WF S4x128x256 S256x512 S4x128x512 [2] [0] [0, 1] [1] [] []
  dot_S4x512x128x512_S512x512_S4x512x128x512_3_0_012_1_n_n_wf : DotDims.WF S4x512x128x512 S512x512 S4x512x128x512 [3] [0] [0, 1, 2] [1] [] []

variable [Facts₀]

def dot_S4x512x256_S256x512_S4x512x512_2_0_01_1_n_n : DotDims S4x512x256 S256x512 S4x512x512 where
  lhsContracting := [2]
  rhsContracting := [0]
  lhsNonContracting := [0, 1]
  rhsNonContracting := [1]
  lhsBatch := []
  rhsBatch := []
  wf := dot_S4x512x256_S256x512_S4x512x512_2_0_01_1_n_n_wf
def dot_S4x128x256_S256x512_S4x128x512_2_0_01_1_n_n : DotDims S4x128x256 S256x512 S4x128x512 where
  lhsContracting := [2]
  rhsContracting := [0]
  lhsNonContracting := [0, 1]
  rhsNonContracting := [1]
  lhsBatch := []
  rhsBatch := []
  wf := dot_S4x128x256_S256x512_S4x128x512_2_0_01_1_n_n_wf
def dot_S4x512x128x512_S512x512_S4x512x128x512_3_0_012_1_n_n : DotDims S4x512x128x512 S512x512 S4x512x128x512 where
  lhsContracting := [3]
  rhsContracting := [0]
  lhsNonContracting := [0, 1, 2]
  rhsNonContracting := [1]
  lhsBatch := []
  rhsBatch := []
  wf := dot_S4x512x128x512_S512x512_S4x512x128x512_3_0_012_1_n_n_wf

class Facts : Prop extends Facts₀ where

variable [Facts]
-- ==== Proof.JointSpec.lean ====
/-
  The joint network as one function of its five arrays, on the extended reals.

  For batch `b`, encoder frame `t`, decoder step `u` and hidden unit `h` the pre-activation is
  `s(b,t,u,h) = Σ_d enc(b,t,d)·W1(d,h) + Σ_d dec(b,u,d)·W1(256+d,h) + b1(h)`: the first 256 rows of `W1` act on the
  encoder frame, the last 256 on the decoder step. The activation is the tanh form of GELU,
  `g(s) = s · (½ · (1 + tanh(c₂ · (s + c₁ · (s · (s · s))))))`, its three constants kept as the binary words both
  programs spell them by. The output is `out(b,t,u,v) = Σ_h g(s(b,t,u,h)) · Wfc(h,v)`.
-/
import Idealize.ShloMosaic.PureOps.Ideal
import Idealize.ShloMosaic.Lib.ValueIdx

noncomputable section

namespace Cert.Joint

open Idealize.ShloMosaic Idealize.ShloMosaic.ValueIdx

/-- The tanh form of GELU at one extended real, the cube associated as `s · (s · s)`. -/
def gelu (s : EReal) : EReal :=
  s * (Ideal.ofBits .f32 0x3F000000#32 * (Ideal.ofBits .f32 0x3F800000#32
    + Ideal.tanh (Ideal.ofBits .f32 0x3F4C422A#32 * (s + Ideal.ofBits .f32 0x3D372713#32 * (s * (s * s))))))

/-- The cube may as well be associated `(s · s) · s`: multiplication of extended reals commutes. -/
theorem gelu_cube_left (s : EReal) :
    s * (Ideal.ofBits .f32 0x3F000000#32 * (Ideal.ofBits .f32 0x3F800000#32
      + Ideal.tanh (Ideal.ofBits .f32 0x3F4C422A#32 * (s + Ideal.ofBits .f32 0x3D372713#32 * (s * s * s))))) = gelu s := by
  unfold gelu
  rw [mul_comm (s * s) s]

/-- Row `d` of the encoder half of `W1`. -/
def encRow (d : Fin 256) : Fin 512 := ⟨d.val, by omega⟩
/-- Row `256 + d` of `W1`: row `d` of the decoder half. -/
def decRow (d : Fin 256) : Fin 512 := ⟨256 + d.val, by omega⟩

/-- The pre-activation `s(b,t,u,h)`. -/
def pre (enc : FVec Ideal ⟨3, ![4, 512, 256]⟩ .f32) (dec : FVec Ideal ⟨3, ![4, 128, 256]⟩ .f32)
    (W1 : FVec Ideal ⟨2, ![512, 512]⟩ .f32) (b1 : FVec Ideal ⟨1, ![512]⟩ .f32)
    (b : Fin 4) (t : Fin 512) (u : Fin 128) (h : Fin 512) : EReal :=
  (∑ d : Fin 256, enc (ix3 b t d) * W1 (ix2 (encRow d) h)) + (∑ d : Fin 256, dec (ix3 b u d) * W1 (ix2 (decRow d) h))
    + b1 (ix1 h)

/-- The output array: `out(b,t,u,v) = Σ_h g(s(b,t,u,h)) · Wfc(h,v)`. -/
def out (enc : FVec Ideal ⟨3, ![4, 512, 256]⟩ .f32) (dec : FVec Ideal ⟨3, ![4, 128, 256]⟩ .f32)
    (W1 : FVec Ideal ⟨2, ![512, 512]⟩ .f32) (b1 : FVec Ideal ⟨1, ![512]⟩ .f32) (Wfc : FVec Ideal ⟨2, ![512, 512]⟩ .f32) :
    FVec Ideal ⟨4, ![4, 512, 128, 512]⟩ .f32 :=
  fun i => ∑ h : Fin 512, gelu (pre enc dec W1 b1 (i 0) (i 1) (i 2) h) * Wfc (ix2 h (i 3))

end Cert.Joint

end
-- ==== Proof.RefJoint.lean ====
/-
  The reference computes the joint network's function.

  Read one operation at a time, the reference's result at `(b,t,u,v)` is the sum over the hidden unit `h` of the
  activation of the pre-activation at `(b,t,u,h)` times `Wfc(h,v)`. The pre-activation stage adds the two products
  (the encoder frames with the first 256 rows of `W1`, the decoder steps with the last 256, each broadcast over the
  axis it does not have) and then the bias; the activation stage is the tanh form of GELU with the cube associated
  `(s · s) · s`, which is the specification's `s · (s · s)` because multiplication commutes.
-/
import proofs.«173846_j67336497266979_1_alg».proof.Proof.Gen.ReferenceIdeal.Read
import proofs.«173846_j67336497266979_1_alg».proof.Proof.JointSpec

noncomputable section

namespace Cert.Joint.Ref

open Cert.ReferenceIdeal Cert.ReferenceIdeal.Read Idealize.ShloMosaic Idealize.ShloMosaic.ValueIdx Cert.Joint

/-- The stage before the activation, at `(b,t,u,h)`, is the pre-activation `s(b,t,u,h)`. -/
theorem stage_pre (x0 : FVec Ideal S4x512x256 .f32) (x1 : FVec Ideal S4x128x256 .f32) (x2 : FVec Ideal S512x512 .f32)
    (x3 : FVec Ideal S512 .f32) (b : Fin 4) (t : Fin 512) (u : Fin 128) (h : Fin 512) :
    val_main_v11 (F := Ideal) x0 x1 x2 x3 (ix4 b t u h) = pre x0 x1 x2 x3 b t u h := by
  have e0 : ∀ k : Fin 256, lidx_main_v2 (idx_main_v4 (idx_main_v6 (ix4 b t u h))) k = ix3 b t k := fun k =>
    funext fun a => by match a with | ⟨0, _⟩ => rfl | ⟨1, _⟩ => rfl | ⟨2, _⟩ => rfl
  have e1 : ∀ k : Fin 256, idx_main_v0 (ridx_main_v2 (idx_main_v4 (idx_main_v6 (ix4 b t u h))) k) = ix2 (encRow k) h :=
    fun k => funext fun a => by match a with | ⟨0, _⟩ => rfl | ⟨1, _⟩ => rfl
  have e2 : ∀ k : Fin 256, lidx_main_v3 (idx_main_v5 (idx_main_v7 (ix4 b t u h))) k = ix3 b u k := fun k =>
    funext fun a => by match a with | ⟨0, _⟩ => rfl | ⟨1, _⟩ => rfl | ⟨2, _⟩ => rfl
  have e3 : ∀ k : Fin 256, idx_main_v1 (ridx_main_v3 (idx_main_v5 (idx_main_v7 (ix4 b t u h))) k) = ix2 (decRow k) h :=
    fun k => funext fun a => by match a with | ⟨0, _⟩ => rfl | ⟨1, _⟩ => rfl
  have e4 : idx_main_v9 (idx_main_v10 (ix4 b t u h)) = ix1 h :=
    funext fun a => by match a with | ⟨0, _⟩ => rfl
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, e0, e1, e2, e3, e4, Ideal.addf_def]
  rfl

/-- The activation stage at an index is GELU of the stage before it there. -/
theorem stage_act (x0 : FVec Ideal S4x512x256 .f32) (x1 : FVec Ideal S4x128x256 .f32) (x2 : FVec Ideal S512x512 .f32)
    (x3 : FVec Ideal S512 .f32) (i : S4x512x128x512.Idx) :
    val_main_v24 (F := Ideal) x0 x1 x2 x3 i = gelu (val_main_v11 (F := Ideal) x0 x1 x2 x3 i) := by
  rw [val_main_v24_apply, val_main_v23_apply, val_main_v22_apply, val_main_cst_2_apply, val_main_v21_apply,
    val_main_v20_apply, val_main_cst_1_apply, val_main_v19_apply, val_main_v18_apply, val_main_v17_apply,
    val_main_cst_0_apply, val_main_v16_apply, val_main_v15_apply, val_main_v14_apply, val_main_cst_apply,
    val_main_v13_apply, val_main_v12_apply]
  generalize val_main_v11 (F := Ideal) x0 x1 x2 x3 i = s
  simp only [Ideal.mulf_def, Ideal.addf_def, Ideal.hostUnary_tanh_def, Ideal.ofBits_def]
  exact gelu_cube_left s

/-- THE REFERENCE'S RESULT is the joint network's function of the five arrays. -/
theorem result_eq (x0 : FVec Ideal S4x512x256 .f32) (x1 : FVec Ideal S4x128x256 .f32) (x2 : FVec Ideal S512x512 .f32)
    (x3 : FVec Ideal S512 .f32) (x4 : FVec Ideal S512x512 .f32) :
    val_main_v25 (F := Ideal) x0 x1 x2 x3 x4 = out x0 x1 x2 x3 x4 := by
  funext i
  obtain ⟨b, t, u, v, rfl⟩ : ∃ (b : Fin 4) (t : Fin 512) (u : Fin 128) (v : Fin 512), i = ix4 b t u v :=
    ⟨i 0, i 1, i 2, i 3, eq_ix4 i⟩
  rw [val_main_v25_apply]
  unfold out
  refine Finset.sum_congr rfl fun h _ => ?_
  have el : lidx_main_v25 (ix4 b t u v) h = ix4 b t u h :=
    funext fun a => by match a with | ⟨0, _⟩ => rfl | ⟨1, _⟩ => rfl | ⟨2, _⟩ => rfl | ⟨3, _⟩ => rfl
  have er : ridx_main_v25 (ix4 b t u v) h = ix2 h v :=
    funext fun a => by match a with | ⟨0, _⟩ => rfl | ⟨1, _⟩ => rfl
  rw [el, er, stage_act, stage_pre]

end Cert.Joint.Ref

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«173846_j67336497266979_1_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibMergeRows.lean ====
/-
  Two leading axes merged into one, and split again, read at an index; and one slab repeated along a new leading
  extent.

  A rank-3 array `[a, b, c]` reshaped to the matrix `[m, c]` (`m = a · b`) keeps the row-major order, so row
  `p · b + q` of the matrix is the array's row `(p, q)`; the reshape back reads the matrix the same way. A `[1, b, c]`
  slab broadcast to `[a, b, c]` has, at `(p, k, q)`, the slab's entry `(k, q)`. The three lemmas take the index by
  coordinates (`ix2`, `ix3`), so that they apply to a printed operation by unification.
-/
import Idealize.ShloMosaic.Lib.ValueIdx
import Idealize.ShloMosaic.Lib.Pipeline.Value

namespace Cert.LibMergeRows

open Idealize.ShloMosaic Idealize.ShloMosaic.ValueIdx

variable {α : Type}

/-- An `[a, b, c]` array cast to `[m, c]` reads, at `(r, e)` with `r = p · b + q`, the operand at `(p, q, e)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An `[m, c]` matrix cast to `[a, b, c]` reads, at `(p, q, e)`, the operand's row `r = p · b + q` at `e`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A `[1, b, c]` slab broadcast to `[a, b, c]` reads, at `(p, k, q)`, the slab at `(0, k, q)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (k : Fin b) (q : Fin c) :
    broadcastTo ⟨3, ![a, b, c]⟩ v h (ix3 p k q) = v (ix3 (0 : Fin 1) k q) := by
  refine broadcastTo_apply v h (ix3 p k q) (ix3 (0 : Fin 1) k q) fun ax => ?_
  match ax with
  | ⟨0, _⟩ => rfl
  | ⟨1, _⟩ =>
    show k.val = if b = 1 then 0 else k.val
    split
    · have := k.isLt; omega
    · rfl
  | ⟨2, _⟩ =>
    show q.val = if c = 1 then 0 else q.val
    split
    · have := q.isLt; omega
    · rfl

end Cert.LibMergeRows
-- ==== Proof.LibMiddleAxis.lean ====
/-
  A unit axis in the middle, and the two ways a rank-3 broadcast fills around it, read at an index.

  A matrix `[a, c]` viewed as `[a, 1, c]` has, at `(p, u, q)`, the matrix entry `(p, q)`; repeated `b` times along
  the middle axis it has, at `(p, k, q)`, the entry `(p, q)` still. A column `[b, 1]` viewed as `[1, b, 1]` has, at
  `(u, k, u')`, the column's entry `k`; repeated along the first and last axes to `[a, b, c]` it has, at `(p, k, q)`,
  the entry `k`. Together: a table `f(p, q) ∘ g(k)` laid out with `k` on the middle axis. Last, the one element of a
  `[1, 1]` array taken out by position.
-/
import Idealize.ShloMosaic.Lib.ValueIdx
import Idealize.ShloMosaic.Lib.Pipeline.Value

namespace Cert.LibMiddleAxis

open Idealize.ShloMosaic Idealize.ShloMosaic.ValueIdx

variable {α : Type}

/-- An `[a, c]` array cast to `[a, 1, c]` reads, at `(p, u, q)`, the operand at `(p, q)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- A `[b, 1]` column cast to `[1, b, 1]` reads, at `(u, k, u')`, the column's entry `k`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (k : Fin b) (u' : Fin 1) :
    shapeCast ⟨3, ![1, b, 1]⟩ x h (ix3 u k u') = x (ix2 k (0 : Fin 1)) :=
  shapeCast_apply x h _ _ (by
    have hu : u.val = 0 := by omega
    have hu' : u'.val = 0 := by omega
    rw [Shape.rowMajor_val_three, Shape.rowMajor_val_two]
    show k.val * 1 + 0 = (u.val * b + k.val) * 1 + u'.val
    rw [hu, hu', Nat.zero_mul, Nat.zero_add])

/-- An `[a, 1, c]` array broadcast to `[a, b, c]` reads, at `(p, k, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, 1]` array broadcast to `[a, b, c]` reads, at `(p, k, q)`, the operand at `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (q : Fin c) :
    broadcastTo ⟨3, ![a, b, c]⟩ v h (ix3 p k q) = v (ix3 (0 : Fin 1) k (0 : Fin 1)) := by
  refine broadcastTo_apply v h (ix3 p k q) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- The element of a `[1, 1]` array taken out at position (0, 0) is its entry `(0, 0)`. -/
theorem extractAt_11 (x : (⟨2, ![1, 1]⟩ : Shape).Idx → α)
    (h : ∀ d, (![0, 0] : Fin 2 → Nat) d < (⟨2, ![1, 1]⟩ : Shape).size d) :
    extractAt ![0, 0] x h = x (ix2 (0 : Fin 1) (0 : Fin 1)) := by
  unfold extractAt
  exact congrArg x (funext fun d => Fin.ext (by match d with | ⟨0, _⟩ => rfl | ⟨1, _⟩ => rfl))

end Cert.LibMiddleAxis
-- ==== Proof.LibRowToBox.lean ====
/-
  One row repeated over two leading axes, read at an index.

  A `[1, 1, c]` array broadcast to `[a, b, c]` has, at `(p, k, q)`, the row's entry `q`: the two leading coordinates
  are forgotten, the last is kept. The index is taken by coordinates (`ix3`), so that the lemma applies to a printed
  broadcast by unification.
-/
import Idealize.ShloMosaic.Lib.ValueIdx
import Idealize.ShloMosaic.Lib.Pipeline.Value

namespace Cert.LibRowToBox

open Idealize.ShloMosaic Idealize.ShloMosaic.ValueIdx

variable {α : Type}

/-- A `[1, 1, c]` row broadcast to `[a, b, c]` reads, at `(p, k, q)`, the row at `(0, 0, q)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (k : Fin b) (q : Fin c) :
    broadcastTo ⟨3, ![a, b, c]⟩ v h (ix3 p k q) = v (ix3 (0 : Fin 1) (0 : Fin 1) q) := by
  refine broadcastTo_apply v h (ix3 p k q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

end Cert.LibRowToBox
-- ==== Proof.BodyJoint.lean ====
/-
  What the kernel's body leaves in its output block, entry by entry.

  At a grid point the body holds a `[1,16,256]` block of encoder frames, the batch's `[1,128,256]` decoder steps, the
  two `[256,512]` halves of `W1`, the `[1,512]` bias row and the `[512,512]` matrix `Wfc`. It multiplies the frames and
  the steps by their halves of `W1`, lays the two products along a new middle and a new leading axis, adds them and
  the bias row (this is the pre-activation, one value per frame, step and hidden unit), applies the tanh form of
  GELU entry by entry, merges the frame and step axes into 2048 rows, multiplies by `Wfc` and splits the rows
  again. So entry `(0, t, u, v)` of the stored block is `Σ_h g(s(t,u,h)) · Wfc(h,v)` with
  `s(t,u,h) = Σ_d frames(0,t,d)·We(d,h) + Σ_d steps(0,u,d)·Wd(d,h) + bias(0,h)`.
  A change of float format is the identity on the extended reals, and a product accumulated into zero is the plain
  sum over the contracted axis.
-/
import proofs.«173846_j67336497266979_1_alg».proof.Proof.Gen.KernelIdeal.Frame
import proofs.«173846_j67336497266979_1_alg».proof.Proof.JointSpec
import proofs.«173846_j67336497266979_1_alg».proof.Proof.LibMatmulRows
import proofs.«173846_j67336497266979_1_alg».proof.Proof.LibMergeRows
import proofs.«173846_j67336497266979_1_alg».proof.Proof.LibMiddleAxis
import proofs.«173846_j67336497266979_1_alg».proof.Proof.LibRowToBox
import Idealize.ShloMosaic.Lib.ValueLayout
import Idealize.ShloMosaic.Lib.Pipeline.Value

noncomputable section

namespace Cert.Joint.Body

open Cert.KernelIdeal Cert.KernelIdeal.Gen Idealize.ShloMosaic Idealize.ShloMosaic.ValueIdx Cert.Joint

/-- The activated values of a block: at frame `t`, step `u`, hidden unit `h`, GELU of the pre-activation — the frame's
    product with the encoder half, plus the step's product with the decoder half, plus the bias. -/
theorem activated_apply (v0 : FVec Ideal S1x16x256 .f32) (v3 : FVec Ideal S1x128x256 .f32) (v6 v8 : FVec Ideal S256x512 .bf16)
    (v12 : FVec Ideal S1x512 .f32) (t : Fin 16) (u : Fin 128) (h : Fin 512) :
    k0_pay3 (F := Ideal) v0 v3 v6 v8 v12 (ix3 t u h)
      = gelu ((∑ d : Fin 256, v0 (ix3 (0 : Fin 1) t d) * v6 (ix2 d h)) + (∑ d : Fin 256, v3 (ix3 (0 : Fin 1) u d) * v8 (ix2 d h))
          + v12 (ix2 (0 : Fin 1) h)) := by
  -- the entrywise operations after the second sum are GELU's, word for word
  refine (show _ = gelu _ from rfl).trans (congrArg gelu ?_)
  rw [addf_apply, addf_apply]
  rw [LibMiddleAxis.broadcastTo_a1c_abc_apply, LibMiddleAxis.shapeCast_ac_a1c_apply,
    LibMergeRows.broadcastTo_1bc_abc_apply, shapeCast_ab_1ab_apply,
    LibRowToBox.broadcastTo_11c_abc_apply, shapeCast_ab_1ab_apply, shapeCast_self, shapeCast_self, shapeCast_self]
  unfold Idealize.ShloMosaic.matmul
  rw [LibMatmulRows.matmul_rows_apply (a := 16) (b := 256) (c := 512) dot_S16x256_S256x512_S16x512_1_0_0_1_n_n rfl rfl rfl rfl rfl rfl _ _ t h,
    LibMatmulRows.matmul_rows_apply (a := 128) (b := 256) (c := 512) dot_S128x256_S256x512_S128x512_1_0_0_1_n_n rfl rfl rfl rfl rfl rfl _ _ u h]
  simp only [truncf_apply, shapeCast_1ab_ab_apply]

/-- The stored block from the activated values: row `t · 128 + u` of the merged matrix is `(t, u)`, so entry
    `(z, t, u, v)` is the sum over the hidden unit of the activated value times `Wfc(h, v)`. -/
theorem stored_apply (v11 : FVec Ideal S512x512 .bf16) (v37 : FVec Ideal S16x128x512 .bf16) (z : Fin 1) (t : Fin 16)
    (u : Fin 128) (v : Fin 512) :
    k0_pay1 (F := Ideal) v11 v37 (ix4 z t u v) = ∑ h : Fin 512, v37 (ix3 t u h) * v11 (ix2 h v) := by
  have hr : t.val * 128 + u.val < 2048 := by have := t.isLt; have := u.isLt; omega
  unfold k0_pay1
  rw [shapeCast_abc_1abc_apply, LibMergeRows.shapeCast_mc_abc_apply _ _ t u v ⟨t.val * 128 + u.val, hr⟩ rfl]
  unfold Idealize.ShloMosaic.matmul
  rw [LibMatmulRows.matmul_rows_apply (a := 2048) (b := 512) (c := 512) dot_S2048x512_S512x512_S2048x512_1_0_0_1_n_n rfl rfl rfl rfl rfl rfl _ _ ⟨t.val * 128 + u.val, hr⟩ v]
  refine Finset.sum_congr rfl fun h _ => ?_
  rw [LibMergeRows.shapeCast_abc_mc_apply _ _ t u h ⟨t.val * 128 + u.val, hr⟩ rfl]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- THE OUTPUT BLOCK of the body, from its six input blocks: the one store covers the block, every load reads a whole
    block, and the stored value is `stored_apply` of `activated_apply`. -/
theorem out_block (x0 : FVec Ideal S1x16x256 .f32) (x1 : FVec Ideal S1x128x256 .f32) (x2 x3 : FVec Ideal S256x512 .bf16)
    (x4 : FVec Ideal S1x512 .f32) (x5 : FVec Ideal S512x512 .bf16) (z : Fin 1) (t : Fin 16) (u : Fin 128) (v : Fin 512) :
    out0_6 (F := Ideal) x0 x1 x2 x3 x4 x5 (ix4 z t u v)
      = ∑ h : Fin 512, gelu ((∑ d : Fin 256, x0 (ix3 (0 : Fin 1) t d) * x2 (ix2 d h))
          + (∑ d : Fin 256, x1 (ix3 (0 : Fin 1) u d) * x3 (ix2 d h)) + x4 (ix2 (0 : Fin 1) h)) * x5 (ix2 h v) := by
  unfold out0_6
  rw [View.canon_unit_zero zeros4]
  simp only [View.ld_unit_zero (S := S1x16x256) zeros3, View.ld_unit_zero (S := S1x128x256) zeros3,
    View.ld_unit_zero (S := S256x512) zeros2, View.ld_unit_zero (S := S512x512) zeros2, View.ld_unit_zero (S := S1x512) zeros2]
  rw [stored_apply]
  refine Finset.sum_congr rfl fun h _ => ?_
  rw [activated_apply]
  unfold k0_pay2
  rw [shapeCast_self]

end Cert.Joint.Body

end
-- ==== Proof.BlocksJoint.lean ====
/-
  From the blocks to the whole output array.

  The grid has a point for each batch `b` (4) and each tile `q` of 16 encoder frames (32). At that point the frames'
  window holds frames `16q … 16q+15` of batch `b`, the steps' window all 128 decoder steps of batch `b`, and the four
  remaining windows whole arrays the host prepared before the launch: the first and the last 256 rows of `W1`, the
  bias as a `[1,512]` row, and `Wfc` (each change of float format the identity on the extended reals). The point
  writes back block `(b, q)` of the output: frames `16q … 16q+15` of batch `b`, all steps, all outputs. By the body's
  block function each written entry is the joint network's value at its own array index, so a point writes its
  block of that one function; the 128 blocks tile the array (frame `r` of batch `b` lies in block `(b, r / 16)`); hence
  the array ends holding the function.
-/
import proofs.«173846_j67336497266979_1_alg».proof.Proof.Gen.KernelIdeal.Value
import proofs.«173846_j67336497266979_1_alg».proof.Proof.BodyJoint
import Idealize.ShloMosaic.Lib.StableHlo.Run
import Idealize.ShloMosaic.Lib.Pipeline.Value
import Idealize.ShloMosaic.Lib.ValueLayout
import Idealize.ShloMosaic.PureOps.Ideal

noncomputable section

namespace Cert.Joint.Blocks

open Cert.KernelIdeal Cert.KernelIdeal.Gen Idealize.ShloMosaic Idealize.ShloMosaic.TcCoe Idealize.SL.Sem
open Idealize.ShloMosaic.ValueIdx Cert.Joint
open Idealize.ShloMosaic.Pipeline (Dat)

variable (m : (ℓ : Loc nD τ sig) → Buf (Elt Ideal) ℓ) (ρ : Dev nD → PrngReg)

/-! ## The arrays the host prepared -/

/-- The encoder half: rows `0 … 255` of `W1`. -/
theorem V_encHalf (c : Dev nD) : @Eq (FVec Ideal S256x512 .bf16) (V m c main_v1)
    (truncf .bf16 (extractStridedSlice S256x512 ![0, 0] ((m ((c : Thread nD τ).loc main_arg2)) : FVec Ideal S512x512 .f32) slices_S512x512_S256x512_0_0) bitsLt_bf16_f32) := by
  dsimp only [Gen.V, Gen.hostOps0]; after_results <;> rfl

/-- The decoder half: rows `256 … 511` of `W1`. -/
theorem V_decHalf (c : Dev nD) : @Eq (FVec Ideal S256x512 .bf16) (V m c main_v3)
    (truncf .bf16 (extractStridedSlice S256x512 ![256, 0] ((m ((c : Thread nD τ).loc main_arg2)) : FVec Ideal S512x512 .f32) slices_S512x512_S256x512_256_0) bitsLt_bf16_f32) := by
  dsimp only [Gen.V, Gen.hostOps0]; after_results <;> rfl

/-- `Wfc`, its format changed. -/
theorem V_wfc (c : Dev nD) : @Eq (FVec Ideal S512x512 .bf16) (V m c main_v4)
    (truncf .bf16 ((m ((c : Thread nD τ).loc main_arg4)) : FVec Ideal S512x512 .f32) bitsLt_bf16_f32) := by
  dsimp only [Gen.V, Gen.hostOps0]; after_results <;> rfl

/-- The bias as one row. -/
theorem V_bias (c : Dev nD) : @Eq (FVec Ideal S1x512 .f32) (V m c main_v5)
    (shapeCast S1x512 ((m ((c : Thread nD τ).loc main_arg3)) : FVec Ideal S512 .f32) shapeCasts_S512_S1x512) := by
  dsimp only [Gen.V, Gen.hostOps0]; after_results <;> rfl

/-! ## The index maps over the grid -/

/-- The printed index maps, decided over the 128 points: the frames' window moves with the output's block on the batch
    and tile axes, the steps' window on the batch axis; every other block index is zero; the output's batch and tile
    indices stay in their ranges. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 4) = 0 ∧ win0_6.index t (3 : Fin 4) = 0
    ∧ win0_6.index t (0 : Fin 4) ≤ 3 ∧ win0_6.index t (1 : Fin 4) ≤ 31 :=
  (by decide +kernel : ∀ t : Fin grid0.N, _)

/-- Every batch and tile is some point's. -/
theorem idx_onto : ∀ (q0 : Fin 4) (q1 : Fin 32), ∃ t : Fin cfg0.N, win0_6.index t = ![q0.val, q1.val, 0, 0] :=
  (by decide +kernel : ∀ (q0 : Fin 4) (q1 : Fin 32), ∃ t : Fin grid0.N, win0_6.index t = ![q0.val, q1.val, 0, 0])

/-! ## The input blocks at a point, as entries of the arguments -/

/-- The frames' block: frame `tt` of the tile is frame `16·tile + tt` of the batch. -/
theorem frames_apply (c : Dev nD) (t : Fin cfg0.N) (tt : Fin 16) (d : Fin 256) (k : S4x512x256.Idx)
    (hk0 : (k 0).val = win0_6.index t (0 : Fin 4)) (hk1 : (k 1).val = win0_6.index t (1 : Fin 4) * 16 + tt.val)
    (hk2 : (k 2).val = d.val) :
    (iblk m c 0 t : FVec Ideal S1x16x256 .f32) (ix3 (0 : Fin 1) tt d) = ((m ((c : Thread nD τ).loc main_arg0)) : S4x512x256.Idx → EReal) k := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = (k 0).val; omega
  | ⟨1, _⟩ => show win0_0.index t (1 : Fin 3) * 16 + 1 * tt.val = (k 1).val; omega
  | ⟨2, _⟩ => show win0_0.index t (2 : Fin 3) * 256 + 1 * d.val = (k 2).val; omega

/-- The steps' block: all decoder steps of the batch. -/
theorem steps_apply (c : Dev nD) (t : Fin cfg0.N) (u : Fin 128) (d : Fin 256) (k : S4x128x256.Idx)
    (hk0 : (k 0).val = win0_6.index t (0 : Fin 4)) (hk1 : (k 1).val = u.val) (hk2 : (k 2).val = d.val) :
    (iblk m c 1 t : FVec Ideal S1x128x256 .f32) (ix3 (0 : Fin 1) u d) = ((m ((c : Thread nD τ).loc main_arg1)) : S4x128x256.Idx → EReal) k := by
  obtain ⟨-, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = (k 0).val; omega
  | ⟨1, _⟩ => show win0_1.index t (1 : Fin 3) * 128 + 1 * u.val = (k 1).val; omega
  | ⟨2, _⟩ => show win0_1.index t (2 : Fin 3) * 256 + 1 * d.val = (k 2).val; omega

/-- The encoder half's block is the whole array: row `d` of `W1`. -/
theorem encHalf_apply (c : Dev nD) (t : Fin cfg0.N) (d : Fin 256) (h : Fin 512) (k : S512x512.Idx)
    (hk0 : (k 0).val = d.val) (hk1 : (k 1).val = h.val) :
    (iblk m c 2 t : FVec Ideal S256x512 .bf16) (ix2 d h) = ((m ((c : Thread nD τ).loc main_arg2)) : S512x512.Idx → EReal) k := by
  obtain ⟨-, -, -, -, -, -, e0, e1, -⟩ := idx_facts t
  unfold iblk
  rw [View.read_apply]
  show (V m c main_v1 : S256x512.Idx → EReal) _ = _
  rw [V_encHalf]
  show extractStridedSlice S256x512 ![0, 0] ((m ((c : Thread nD τ).loc main_arg2)) : FVec Ideal S512x512 .f32) slices_S512x512_S256x512_0_0 _ = _
  refine extractStridedSlice_apply _ _ _ _ k fun a => ?_
  match a with
  | ⟨0, _⟩ => show (k 0).val = 0 + (win0_2.index t (0 : Fin 2) * 256 + 1 * d.val); omega
  | ⟨1, _⟩ => show (k 1).val = 0 + (win0_2.index t (1 : Fin 2) * 512 + 1 * h.val); omega

/-- The decoder half's block is the whole array: row `256 + d` of `W1`. -/
theorem decHalf_apply (c : Dev nD) (t : Fin cfg0.N) (d : Fin 256) (h : Fin 512) (k : S512x512.Idx)
    (hk0 : (k 0).val = 256 + d.val) (hk1 : (k 1).val = h.val) :
    (iblk m c 3 t : FVec Ideal S256x512 .bf16) (ix2 d h) = ((m ((c : Thread nD τ).loc main_arg2)) : S512x512.Idx → EReal) k := by
  obtain ⟨-, -, -, -, -, -, -, -, e0, e1, -⟩ := idx_facts t
  unfold iblk
  rw [View.read_apply]
  show (V m c main_v3 : S256x512.Idx → EReal) _ = _
  rw [V_decHalf]
  show extractStridedSlice S256x512 ![256, 0] ((m ((c : Thread nD τ).loc main_arg2)) : FVec Ideal S512x512 .f32) slices_S512x512_S256x512_256_0 _ = _
  refine extractStridedSlice_apply _ _ _ _ k fun a => ?_
  match a with
  | ⟨0, _⟩ => show (k 0).val = 256 + (win0_3.index t (0 : Fin 2) * 256 + 1 * d.val); omega
  | ⟨1, _⟩ => show (k 1).val = 0 + (win0_3.index t (1 : Fin 2) * 512 + 1 * h.val); omega

/-- The bias row's block is the whole row: entry `h` of the bias. -/
theorem bias_apply (c : Dev nD) (t : Fin cfg0.N) (h : Fin 512) :
    (iblk m c 4 t : FVec Ideal S1x512 .f32) (ix2 (0 : Fin 1) h) = ((m ((c : Thread nD τ).loc main_arg3)) : S512.Idx → EReal) (ix1 h) := by
  obtain ⟨-, -, -, -, -, -, -, -, -, -, e0, e1, -⟩ := idx_facts t
  unfold iblk
  rw [View.read_apply]
  show (V m c main_v5 : S1x512.Idx → EReal) _ = _
  rw [V_bias]
  refine shapeCast_apply (s := S512) (t := S1x512) ((m ((c : Thread nD τ).loc main_arg3)) : FVec Ideal S512 .f32) shapeCasts_S512_S1x512 _ (ix1 h) ?_
  rw [Shape.rowMajor_val_one, Shape.rowMajor_val_two]
  show h.val = (win0_4.index t (0 : Fin 2) * 1 + 1 * 0) * 512 + (win0_4.index t (1 : Fin 2) * 512 + 1 * h.val)
  omega

/-- `Wfc`'s block is the whole matrix. -/
theorem wfc_apply (c : Dev nD) (t : Fin cfg0.N) (h : Fin 512) (v : Fin 512) (k : S512x512.Idx)
    (hk0 : (k 0).val = h.val) (hk1 : (k 1).val = v.val) :
    (iblk m c 5 t : FVec Ideal S512x512 .bf16) (ix2 h v) = ((m ((c : Thread nD τ).loc main_arg4)) : S512x512.Idx → EReal) k := by
  obtain ⟨-, -, -, -, -, -, -, -, -, -, -, -, e0, e1, -⟩ := idx_facts t
  unfold iblk
  rw [View.read_apply]
  show (V m c main_v4 : S512x512.Idx → EReal) _ = _
  rw [V_wfc]
  show (m ((c : Thread nD τ).loc main_arg4)) _ = _
  refine congrArg _ (funext fun a => Fin.ext ?_)
  match a with
  | ⟨0, _⟩ => show win0_5.index t (0 : Fin 2) * 512 + 1 * h.val = (k 0).val; omega
  | ⟨1, _⟩ => show win0_5.index t (1 : Fin 2) * 512 + 1 * v.val = (k 1).val; omega

/-! ## What a point writes back -/

/-- Entry `(z, tt, u, v)` of the block a point leaves is the joint network's value at the array index `i` of batch the
    point's, frame `16·tile + tt`, step `u`, output `v`. -/
theorem point_eq (c : Dev nD) (t : Fin cfg0.N) (z : Fin 1) (tt : Fin 16) (u : Fin 128) (v : Fin 512) (i : S4x512x128x512.Idx)
    (hi0 : (i 0).val = win0_6.index t (0 : Fin 4)) (hi1 : (i 1).val = win0_6.index t (1 : Fin 4) * 16 + tt.val)
    (hi2 : (i 2).val = u.val) (hi3 : (i 3).val = v.val) :
    out0_6 (F := Ideal) (iblk m c 0 t) (iblk m c 1 t) (iblk m c 2 t) (iblk m c 3 t) (iblk m c 4 t) (iblk m c 5 t) (ix4 z tt u v) = (out (m ((c : Thread nD τ).loc main_arg0)) (m ((c : Thread nD τ).loc main_arg1)) (m ((c : Thread nD τ).loc main_arg2)) (m ((c : Thread nD τ).loc main_arg3)) (m ((c : Thread nD τ).loc main_arg4))) i := by
  refine (Body.out_block _ _ _ _ _ _ z tt u v).trans ?_
  unfold out
  refine Finset.sum_congr rfl fun h _ => ?_
  refine congrArg₂ (· * ·) (congrArg gelu ?_) (wfc_apply m c t h v (ix2 h (i 3)) rfl hi3)
  unfold pre
  refine congrArg₂ (· + ·) (congrArg₂ (· + ·) (Finset.sum_congr rfl fun d _ => ?_) (Finset.sum_congr rfl fun d _ => ?_))
    (bias_apply m c t h)
  · exact congrArg₂ (· * ·) (frames_apply m c t tt d (ix3 (i 0) (i 1) d) hi0 hi1 rfl) (encHalf_apply m c t d h (ix2 (encRow d) h) rfl rfl)
  · exact congrArg₂ (· * ·) (steps_apply m c t u d (ix3 (i 0) (i 2) d) hi0 hi2 rfl) (decHalf_apply m c t d h (ix2 (decRow d) h) rfl rfl)

/-- WHAT POINT `t` WRITES BACK is block `t` of the joint network's function of the arguments. -/
theorem flushed_eq (c : Dev nD) (t : Fin cfg0.N) :
    (dats m 0 c).flushed 6 t = ((cfg0.win 6).blk t).view.read (Elt Ideal) (out (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed6]
  obtain ⟨-, -, -, -, -, -, -, -, -, -, -, -, -, -, e2, e3, -, -⟩ := idx_facts t
  funext j
  obtain ⟨z, tt, u, v, rfl⟩ : ∃ (z : Fin 1) (tt : Fin 16) (u : Fin 128) (v : Fin 512), (j : S1x16x128x512.Idx) = ix4 z tt u v :=
    ⟨j 0, j 1, j 2, j 3, eq_ix4 j⟩
  show out0_6 (F := Ideal) (iblk m c 0 t) (iblk m c 1 t) (iblk m c 2 t) (iblk m c 3 t) (iblk m c 4 t) (iblk m c 5 t) (ix4 z tt u v) = (out (m ((c : Thread nD τ).loc main_arg0)) (m ((c : Thread nD τ).loc main_arg1)) (m ((c : Thread nD τ).loc main_arg2)) (m ((c : Thread nD τ).loc main_arg3)) (m ((c : Thread nD τ).loc main_arg4))) (((cfg0.win 6).blk t).view.emb (ix4 z tt u v))
  have hz : z.val = 0 := by omega
  refine point_eq m c t z tt u v _ ?_ ?_ ?_ ?_
  · show win0_6.index t (0 : Fin 4) * 1 + 1 * z.val = _; omega
  · show win0_6.index t (1 : Fin 4) * 16 + 1 * tt.val = _; omega
  · show win0_6.index t (2 : Fin 4) * 128 + 1 * u.val = _; omega
  · show win0_6.index t (3 : Fin 4) * 512 + 1 * v.val = _; omega

/-! ## The blocks tile the array -/

/-- An index of the array is in point `t`'s block iff each coordinate is in the block's range on its axis. -/
theorem mem_blk (t : Fin cfg0.N) (i : S4x512x128x512.Idx) :
    i ∈ ((cfg0.win 6).blk t).view.set ↔ ∀ a : Fin 4, win0_6.index t a * S1x16x128x512.size a ≤ (i a).val
      ∧ (i a).val < win0_6.index t a * S1x16x128x512.size a + S1x16x128x512.size a := by
  show i ∈ ((View.whole main_v6).slice (win0_6.rect t)).set ↔ _
  rw [View.set_slice_whole, Rect.mem_set_unit]
  exact Iff.rfl

/-- Every index of the output array lies in the block of the point of its batch and of its frame's tile. -/
theorem cover (i : S4x512x128x512.Idx) :
    ∃ t : Fin cfg0.N, (cfg0.win 6).flush t = true ∧ i ∈ ((cfg0.win 6).blk t).view.set := by
  have hi0 : (i 0).val < 4 := (i 0).isLt
  have hi1 : (i 1).val < 512 := (i 1).isLt
  have hi2 : (i 2).val < 128 := (i 2).isLt
  have hi3 : (i 3).val < 512 := (i 3).isLt
  obtain ⟨t, ht⟩ := idx_onto ⟨(i 0).val, hi0⟩ ⟨(i 1).val / 16, by omega⟩
  have q0 : win0_6.index t (0 : Fin 4) = (i 0).val := congrFun ht 0
  have q1 : win0_6.index t (1 : Fin 4) = (i 1).val / 16 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 128 ≤ (i 2).val ∧ (i 2).val < win0_6.index t (2 : Fin 4) * 128 + 128; omega
  | ⟨3, _⟩ => show win0_6.index t (3 : Fin 4) * 512 ≤ (i 3).val ∧ (i 3).val < win0_6.index t (3 : Fin 4) * 512 + 512; omega

/-- THE OUTPUT ARRAY after the run is the joint network's function of the arguments. -/
theorem final (c : Dev nD) : (dats m 0 c).arrAt 6 cfg0.N = (out (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 6 (out (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- The kernel's run, read: the output array at the joint network's function, the arguments unchanged. -/
theorem run : θ_run defs (onTc (τ := τ) (main (F := Ideal))) ⟨m, fun _ => 0, ρ⟩ fun r => ∀ c : Dev nD,
      r.2.mem ((c : Thread nD τ).loc main_v6) = (out (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Joint.Blocks

end
-- ==== Proof.lean ====
/-
  The kernel and its reference compute one function on the extended reals.

  Both programs take encoder frames `enc[4,512,256]`, decoder steps `dec[4,128,256]`, a weight matrix `W1[512,512]`, a
  bias `b1[512]` and a second weight matrix `Wfc[512,512]`, and return `out[4,512,128,512]` with
  `out(b,t,u,v) = Σ_h g(Σ_d enc(b,t,d)·W1(d,h) + Σ_d dec(b,u,d)·W1(256+d,h) + b1(h)) · Wfc(h,v)`, `g` the tanh form of GELU
  (Proof/JointSpec.lean). The kernel computes it tile by tile: a grid point holds 16 frames of one batch and writes
  the block of those frames (Proof/BodyJoint.lean: the block as a function of the point's input blocks;
  Proof/BlocksJoint.lean: the blocks are blocks of the one function and tile the array). The reference computes it
  with whole-array products and broadcasts (Proof/RefJoint.lean). The two sides differ only in how sums are tiled and
  in the association of the cube `s·s·s` inside `g`; on the extended reals a change of float format is the identity
  and multiplication commutes, so no finiteness of the inputs is used.
  The three frames are the generated frame runs; the kernel's idealization rewrote no operation, so there is nothing
  to preserve.
-/
import proofs.«173846_j67336497266979_1_alg».proof.Defs
import proofs.«173846_j67336497266979_1_alg».proof.Proof.Gen.Kernel
import proofs.«173846_j67336497266979_1_alg».proof.Proof.Gen.Kernel.Skeleton
import proofs.«173846_j67336497266979_1_alg».proof.Proof.Gen.Kernel.Launch
import proofs.«173846_j67336497266979_1_alg».proof.Proof.Gen.Kernel.Points
import proofs.«173846_j67336497266979_1_alg».proof.Proof.Gen.Kernel.Frame
import proofs.«173846_j67336497266979_1_alg».proof.Proof.Gen.KernelIdeal
import proofs.«173846_j67336497266979_1_alg».proof.Proof.Gen.KernelIdeal.Skeleton
import proofs.«173846_j67336497266979_1_alg».proof.Proof.Gen.KernelIdeal.Launch
import proofs.«173846_j67336497266979_1_alg».proof.Proof.Gen.KernelIdeal.Points
import proofs.«173846_j67336497266979_1_alg».proof.Proof.Gen.KernelIdeal.Frame
import proofs.«173846_j67336497266979_1_alg».proof.Proof.Gen.ReferenceIdeal
import proofs.«173846_j67336497266979_1_alg».proof.Proof.Gen.KernelIdeal.Value
import proofs.«173846_j67336497266979_1_alg».proof.Proof.Gen.ReferenceIdeal.Run
import proofs.«173846_j67336497266979_1_alg».proof.Proof.Gen.ReferenceIdeal.Read
import proofs.«173846_j67336497266979_1_alg».proof.Proof.Gen.Pre_finite_inputs
import proofs.«173846_j67336497266979_1_alg».proof.Proof.JointSpec
import proofs.«173846_j67336497266979_1_alg».proof.Proof.RefJoint
import proofs.«173846_j67336497266979_1_alg».proof.Proof.BlocksJoint
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the output array at the joint network's function of the arguments, and the arguments agree. -/
theorem algebraic : Cert.algebraic_KernelIdeal_ReferenceIdeal := by
  intro m ρ m' ρ' _ hagree
  refine ⟨fun c => Cert.Joint.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Joint.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Joint.Ref.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
